-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x512 .f32) (main_arg2 : IVec S4096x512 32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096x512 : Shape := ⟨2, ![4096, 512]⟩
abbrev S4096 : Shape := ⟨1, ![4096]⟩
abbrev S4096x1 : Shape := ⟨2, ![4096, 1]⟩
abbrev S_ : Shape := ⟨0, ![]⟩
abbrev S4096x512x1 : Shape := ⟨3, ![4096, 512, 1]⟩
abbrev S4096x512x2 : Shape := ⟨3, ![4096, 512, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 31
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .i32⟩
  | .hbm, ⟨3, _⟩ => ⟨S4096, .f32⟩
  | .hbm, ⟨4, _⟩ => ⟨S4096, .i32⟩
  | .hbm, ⟨5, _⟩ => ⟨S4096x1, .i32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S4096x1, .i32⟩
  | .hbm, ⟨10, _⟩ => ⟨S4096x1, .i1⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S4096x1, .i32⟩
  | .hbm, ⟨15, _⟩ => ⟨S_, .i32⟩
  | .hbm, ⟨16, _⟩ => ⟨S4096x512, .i32⟩
  | .hbm, ⟨17, _⟩ => ⟨S4096x512, .i1⟩
  | .hbm, ⟨18, _⟩ => ⟨S_, .i32⟩
  | .hbm, ⟨19, _⟩ => ⟨S4096x512, .i32⟩
  | .hbm, ⟨20, _⟩ => ⟨S4096x512, .i32⟩
  | .hbm, ⟨21, _⟩ => ⟨S4096x512, .i32⟩
  | .hbm, ⟨22, _⟩ => ⟨S4096x512, .i32⟩
  | .hbm, ⟨23, _⟩ => ⟨S4096x512x1, .i32⟩
  | .hbm, ⟨24, _⟩ => ⟨S4096x512x1, .i32⟩
  | .hbm, ⟨25, _⟩ => ⟨S4096x512x2, .i32⟩
  | .hbm, ⟨26, _⟩ => ⟨S4096x4096, .f32⟩
  | .hbm, ⟨27, _⟩ => ⟨S4096x4096, .bf16⟩
  | .hbm, ⟨28, _⟩ => ⟨S4096x4096, .bf16⟩
  | .hbm, ⟨29, _⟩ => ⟨S1x4096, .f32⟩
  | .hbm, ⟨30, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S_S4096x1 : S_.BroadcastsInDim S4096x1 (![] : Fin 0 → Fin S4096x1.rank)
  bcast_S_S4096x512 : S_.BroadcastsInDim S4096x512 (![] : Fin 0 → Fin S4096x512.rank)
  bcast_S4096x1_S4096x512_0_1 : S4096x1.BroadcastsInDim S4096x512 (![0, 1] : Fin 2 → Fin S4096x512.rank)
  bcast_S4096x512_S4096x512x1_0_1 : S4096x512.BroadcastsInDim S4096x512x1 (![0, 1] : Fin 2 → Fin S4096x512x1.rank)
  concatenates_S4096x512x1_S4096x512x1_S4096x512x2_d2 : Shape.Concatenates [S4096x512x1, S4096x512x1] S4096x512x2 2
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S4096x512x2_S4096x512_n_01_01_2_wf : ScatterDims.WF S4096x4096 S4096x512x2 S4096x512 [] [0, 1] [0, 1] 2
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S4096x512x2_S4096x512_n_01_01_2 : ScatterDims S4096x4096 S4096x512x2 S4096x512 where
  updateWindowDims := []
  insertedWindowDims := [0, 1]
  scatterDimsToOperandDims := [0, 1]
  indexVectorDim := 2
  wf := scatter_S4096x4096_S4096x512x2_S4096x512_n_01_01_2_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x512 : Shape := ⟨2, ![4096, 512]⟩
abbrev S4096 : Shape := ⟨1, ![4096]⟩
abbrev S4096x1 : Shape := ⟨2, ![4096, 1]⟩
abbrev S_ : Shape := ⟨0, ![]⟩
abbrev S4096x512x1 : Shape := ⟨3, ![4096, 512, 1]⟩
abbrev S4096x512x2 : Shape := ⟨3, ![4096, 512, 2]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x512, .i32⟩
  | .hbm, ⟨3, _⟩ => ⟨S4096, .f32⟩
  | .hbm, ⟨4, _⟩ => ⟨S4096, .i32⟩
  | .hbm, ⟨5, _⟩ => ⟨S4096x1, .i32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S4096x1, .i32⟩
  | .hbm, ⟨10, _⟩ => ⟨S4096x1, .i1⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S4096x1, .i32⟩
  | .hbm, ⟨15, _⟩ => ⟨S_, .i32⟩
  | .hbm, ⟨16, _⟩ => ⟨S4096x512, .i32⟩
  | .hbm, ⟨17, _⟩ => ⟨S4096x512, .i1⟩
  | .hbm, ⟨18, _⟩ => ⟨S_, .i32⟩
  | .hbm, ⟨19, _⟩ => ⟨S4096x512, .i32⟩
  | .hbm, ⟨20, _⟩ => ⟨S4096x512, .i32⟩
  | .hbm, ⟨21, _⟩ => ⟨S4096x512, .i32⟩
  | .hbm, ⟨22, _⟩ => ⟨S4096x512, .i32⟩
  | .hbm, ⟨23, _⟩ => ⟨S4096x512x1, .i32⟩
  | .hbm, ⟨24, _⟩ => ⟨S4096x512x1, .i32⟩
  | .hbm, ⟨25, _⟩ => ⟨S4096x512x2, .i32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S_S4096x1 : S_.BroadcastsInDim S4096x1 (![] : Fin 0 → Fin S4096x1.rank)
  bcast_S_S4096x512 : S_.BroadcastsInDim S4096x512 (![] : Fin 0 → Fin S4096x512.rank)
  bcast_S4096x1_S4096x512_0_1 : S4096x1.BroadcastsInDim S4096x512 (![0, 1] : Fin 2 → Fin S4096x512.rank)
  bcast_S4096x512_S4096x512x1_0_1 : S4096x512.BroadcastsInDim S4096x512x1 (![0, 1] : Fin 2 → Fin S4096x512x1.rank)
  concatenates_S4096x512x1_S4096x512x1_S4096x512x2_d2 : Shape.Concatenates [S4096x512x1, S4096x512x1] S4096x512x2 2
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S4096x512x2_S4096x512_n_01_01_2_wf : ScatterDims.WF S4096x4096 S4096x512x2 S4096x512 [] [0, 1] [0, 1] 2
  dot_S4096x4096_S4096x4096_S4096x4096_1_0_0_1_n_n_wf : DotDims.WF S4096x4096 S4096x4096 S4096x4096 [1] [0] [0] [1] [] []

variable [Facts₀]

def scatter_S4096x4096_S4096x512x2_S4096x512_n_01_01_2 : ScatterDims S4096x4096 S4096x512x2 S4096x512 where
  updateWindowDims := []
  insertedWindowDims := [0, 1]
  scatterDimsToOperandDims := [0, 1]
  indexVectorDim := 2
  wf := scatter_S4096x4096_S4096x512x2_S4096x512_n_01_01_2_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The specification, stated without either program: a dense layer over the extended reals,

      G X W b (i, j) = (∑ k < 4096, X (i, k) · W (j, k)) + b j,

  for a [4096, 4096] input X, a [4096, 4096] weight W (one row per output feature) and a bias b of length 4096;
  and the one law that joins the two programs: a sum over 4096 terms is the sum of its four consecutive blocks of
  1024 terms, taken in order from zero. Only the associativity of addition and `0 + a = a` are used, so the law
  holds on all extended reals, the infinities included: no finiteness is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## A family over `Fin n` read along the naturals -/

/-- A family indexed by `Fin n`, continued by zero past `n`: sums over ranges of naturals can then be split and
    joined by the lemmas about `Finset.range`. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

/-- Summed over `range n` the continuation is the sum of the family. -/
theorem sum_ext {n : ℕ} (f : Fin n → EReal) : ∑ k ∈ Finset.range n, ext f k = ∑ k : Fin n, f k := by
  rw [Finset.sum_range]
  exact Finset.sum_congr rfl fun k _ => ext_of_lt f k.val k.isLt

/-! ## Partial sums by blocks of 1024 -/

/-- The sum of the first `n` blocks of 1024 terms. -/
def part (f : Fin 4096 → EReal) (n : ℕ) : EReal := ∑ k ∈ Finset.range (1024 * n), ext f k

theorem part_zero (f : Fin 4096 → EReal) : part f 0 = 0 := by
  unfold part; rw [Nat.mul_zero, Finset.sum_range_zero]

/-- One more block: the partial sum so far plus the block's own sum. -/
theorem part_succ (f : Fin 4096 → EReal) (n : ℕ) :
    part f (n + 1) = part f n + ∑ r ∈ Finset.range 1024, ext f (1024 * n + r) := by
  unfold part; rw [Nat.mul_succ, Finset.sum_range_add]

/-- All four blocks: the whole sum. -/
theorem part_four (f : Fin 4096 → EReal) : part f 4 = ∑ k : Fin 4096, f k := sum_ext f

/-- Block `n` (of four) summed over its own 1024 positions: any family `g` over `Fin 1024` that reads `f` at
    `1024 n + r` has the block's sum. -/
theorem block_sum (f : Fin 4096 → EReal) (n : ℕ) (hn : n < 4) (g : Fin 1024 → EReal)
    (hg : ∀ r : Fin 1024, g r = f ⟨1024 * n + r.val, by have := r.isLt; omega⟩) :
    ∑ r : Fin 1024, g r = ∑ r ∈ Finset.range 1024, ext f (1024 * n + r) := by
  rw [Finset.sum_range]
  refine Finset.sum_congr rfl fun r _ => ?_
  rw [hg r]
  exact (ext_of_lt f _ _).symm

/-! ## Positions inside blocks -/

/-- Position `p` of block `a` (of four blocks of 1024) along an axis of extent 4096. -/
def pos (a : ℕ) (ha : a < 4) (p : Fin 1024) : Fin 4096 := ⟨1024 * a + p.val, by have := p.isLt; omega⟩

theorem pos_val (a : ℕ) (ha : a < 4) (p : Fin 1024) : (pos a ha p).val = 1024 * a + p.val := rfl

/-- The block's number may be spelt in any equal way. -/
theorem pos_congr {a a' : ℕ} (h : a = a') (ha : a < 4) (ha' : a' < 4) (p : Fin 1024) : pos a ha p = pos a' ha' p := by
  subst h; rfl

/-- Every position along the axis is a position of some block. -/
theorem pos_div_mod (i : Fin 4096) :
    pos (i.val / 1024) (by have := i.isLt; omega) ⟨i.val % 1024, Nat.mod_lt _ (by decide)⟩ = i :=
  Fin.ext (by show 1024 * (i.val / 1024) + i.val % 1024 = i.val; omega)

/-- The sum over block `n` of a family `g` that reads `f` at the block's positions. -/
theorem block_sum_pos (f : Fin 4096 → EReal) (n : ℕ) (hn : n < 4) (g : Fin 1024 → EReal)
    (hg : ∀ r : Fin 1024, g r = f (pos n hn r)) :
    ∑ r : Fin 1024, g r = ∑ r ∈ Finset.range 1024, ext f (1024 * n + r) :=
  block_sum f n hn g hg

/-! ## The dense layer -/

/-- The shape of the input, of the dense weight and of the result. -/
abbrev Mat : Shape := ⟨2, ![4096, 4096]⟩
/-- The shape of the bias. -/
abbrev Row : Shape := ⟨1, ![4096]⟩

/-- Term `k` of entry (i, j)'s contraction: input row `i` against weight row `j`. -/
def term (X W : Mat.Idx → EReal) (i j k : Fin 4096) : EReal := X (ix2 i k) * W (ix2 j k)

/-- The dense layer: entry (i, j) is the contraction of input row `i` with weight row `j`, plus bias `j`. -/
def G (X W : Mat.Idx → EReal) (b : Row.Idx → EReal) : Mat.Idx → EReal :=
  fun y => (∑ k : Fin 4096, term X W (y 0) (y 1) k) + b (ix1 (y 1))

/-- Read at coordinates. -/
theorem G_apply (X W : Mat.Idx → EReal) (b : Row.Idx → EReal) (i j : Fin 4096) :
    G X W b (ix2 i j) = (∑ k : Fin 4096, term X W i j k) + b (ix1 j) := rfl

end Cert.Spec

end
-- ==== Proof.Payload.lean ====
/-
  The three payloads of the idealized kernel's body, read at an entry (p, q) of a [1024, 1024] block, on the
  extended reals:

    the reset          0
    the accumulation   acc (p, q) + ∑ r < 1024, a (p, r) · b (q, r)      (both operands contracted on their last axis)
    the last step      acc (p, q) + bias (0, q)                           (a [1, 1024] row copied down the block)
-/
import proofs.«178552_j73023033966933_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The matrix product's operand indices -/

/-- At output entry `j` and contraction position `k` the left operand is read on row `j 0` … -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- … at column `k`; -/
theorem lhs_col (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- the right operand on row `j 1` (its rows are the output's columns) … -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- … at column `k`. -/
theorem rhs_col (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The product of two [1024, 1024] blocks contracted on their last axes, into a zero accumulator, at (p, q):
    the sum over `r` of `a (p, r) · b (q, r)`. -/
theorem matmul_apply (a b : FVec Ideal S1024x1024 .bf16) (p q : Fin 1024) :
    FloatOps.matmul dot_S1024x1024_S1024x1024_S1024x1024_1_1_0_0_n_n none a b (constant S1024x1024 .f32 0x00000000#32) (ix2 p q)
      = ∑ r : Fin 1024, a (ix2 p r) * b (ix2 q r) := by
  rw [Ideal.matmul_constant_zero_apply,
    ← Equiv.sum_comp (contrEquiv1 dot_S1024x1024_S1024x1024_S1024x1024_1_1_0_0_n_n 1024 rfl rfl).symm]
  refine Finset.sum_congr rfl fun r _ => ?_
  have hk := contrEquiv1_symm_val dot_S1024x1024_S1024x1024_S1024x1024_1_1_0_0_n_n 1024 rfl rfl r
  have el : dot_S1024x1024_S1024x1024_S1024x1024_1_1_0_0_n_n.lhsIdx (ix2 p q)
      ((contrEquiv1 dot_S1024x1024_S1024x1024_S1024x1024_1_1_0_0_n_n 1024 rfl rfl).symm r) = ix2 p r :=
    funext fun x => Fin.ext (by
      match x with
      | ⟨0, _⟩ => exact lhs_row _ _
      | ⟨1, _⟩ => exact (lhs_col _ _).trans hk)
  have er : dot_S1024x1024_S1024x1024_S1024x1024_1_1_0_0_n_n.rhsIdx (ix2 p q)
      ((contrEquiv1 dot_S1024x1024_S1024x1024_S1024x1024_1_1_0_0_n_n 1024 rfl rfl).symm r) = ix2 q r :=
    funext fun x => Fin.ext (by
      match x with
      | ⟨0, _⟩ => exact rhs_row _ _
      | ⟨1, _⟩ => exact (rhs_col _ _).trans hk)
  rw [el, er]

/-- The product of two blocks at (p, q), both contracted on their last axis. -/
def blockProd (a b : FVec Ideal S1024x1024 .bf16) (p q : Fin 1024) : EReal := ∑ r : Fin 1024, a (ix2 p r) * b (ix2 q r)

/-! ## The payloads at an entry -/

/-- The reset stores zero everywhere. -/
theorem reset_apply (y : S1024x1024.Idx) : k0_pay1 (F := Ideal) y = 0 := by
  unfold k0_pay1
  simp only [shapeCast_self]
  exact Ideal.ofBits_zero_f32

/-- One accumulation step: what the scratch held, plus the product of the two blocks at (p, q). -/
theorem step_apply (acc : Vec Ideal S1024x1024 .f32) (a b : Vec Ideal S1024x1024 .bf16) (p q : Fin 1024) :
    k0_pay2 (F := Ideal) acc a b (ix2 p q) = acc (ix2 p q) + blockProd a b p q := by
  unfold k0_pay2
  simp only [shapeCast_self]
  exact congrArg (acc (ix2 p q) + ·) (matmul_apply a b p q)

/-- The last step adds the bias row, the same on every row of the block. -/
theorem bias_apply (acc : Vec Ideal S1024x1024 .f32) (v : Vec Ideal S1x1024 .f32) (p q : Fin 1024) :
    k0_pay3 (F := Ideal) acc v (ix2 p q) = acc (ix2 p q) + v (ix2 (0 : Fin 1) q) := by
  unfold k0_pay3
  simp only [shapeCast_self]
  exact congrArg (acc (ix2 p q) + ·) (broadcastTo_1b_ab_apply v broadcasts_S1x1024_S1024x1024 p q)

end Cert.KernelIdeal.Body

end
-- ==== Proof.Pieces.lean ====
/-
  What the idealized kernel's body leaves behind at a grid point, as values. The body runs in one of three ways,
  by the point's position `k` along the contraction axis of the grid (four positions): at `k = 0` it resets the
  accumulator and takes one accumulation step; at `k = 1, 2` it takes one step from what the accumulator held; at
  `k = 3` it takes one step and then stores accumulator + bias into the output block. Each statement below names
  what one run leaves in the accumulator or in the output block as a payload of the point's input blocks; they hold
  for any float values.
-/
import proofs.«178552_j73023033966933_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- Between resets the body leaves in the scratch: what it held, taken through one accumulation step with the
    point's two input blocks (one store of the whole scratch; its loads read whole buffers). -/
theorem scratch_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- At the last step of a group of four the scratch is left the same way. -/
theorem scratch_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- At the first step of a group of four the body stores the reset value, reads it back, and leaves one
    accumulation step from it: nothing of what the scratch held before enters. -/
theorem scratch_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At the last step the output block is: the scratch after this point's accumulation step (read back from the
    store just made), plus the bias row copied down the block. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.Blocks.lean ====
/-
  The grid and the blocks. The grid has 4 × 4 × 4 = 64 points; point `t` has coordinates
  (i, j, k) = (t / 16, t / 4 mod 4, t mod 4): `i` the block of result rows, `j` the block of result columns, `k` the
  block of the contraction. At point `t` the input window holds block (i, k) of the input, the weight window block
  (j, k) of the weight, the bias window block (0, j) of the bias row, and the result window is block (i, j) of the
  result. Entry `p` of block `a` sits at position 1024 a + p.
-/
import proofs.«178552_j73023033966933_2_alg».proof.Proof.Gen.KernelIdeal.Frame
import proofs.«178552_j73023033966933_2_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Spec

/-- The printed index maps, decided once over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem lt64 (t : Fin cfg0.N) : t.val < 64 := lt_of_lt_of_eq t.isLt (show cfg0.N = 64 from N_0)
/-- The three coordinates are below 4. -/
theorem gi_lt (t : Fin cfg0.N) : t.val / 16 < 4 := by have := lt64 t; omega
theorem gj_lt (t : Fin cfg0.N) : t.val / 4 % 4 < 4 := by omega
theorem gk_lt (t : Fin cfg0.N) : t.val % 4 < 4 := by omega

variable {F : FTy → Type} [FloatOps F]
variable (m : (ℓ : Loc nD τ sig) → Buf (Elt F) ℓ)

/-- The input window's block at point `t`, at (p, r): the input at (row p of block i, column r of block k). -/
theorem input_block (c : Dev nD) (t : Fin cfg0.N) (p r : Fin 1024) :
    (iblk m c 0 t : Vec F S1024x1024 .bf16) (ix2 p r)
      = (V m c main_v18 : S4096x4096.Idx → Elt F .bf16) (ix2 (pos (t.val / 16) (gi_lt t) p) (pos (t.val % 4) (gk_lt t) r)) := by
  obtain ⟨e0, e1, -⟩ := idx_facts t
  unfold iblk
  rw [View.read_apply]
  show V m c main_v18 _ = V m c main_v18 _
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 1024 + 1 * r.val = 1024 * (t.val % 4) + r.val; rw [e1]; omega

/-- The weight window's block at point `t`, at (q, r): the weight at (row q of block j, column r of block k). -/
theorem weight_block (c : Dev nD) (t : Fin cfg0.N) (q r : Fin 1024) :
    (iblk m c 1 t : Vec F S1024x1024 .bf16) (ix2 q r)
      = (V m c main_v19 : S4096x4096.Idx → Elt F .bf16) (ix2 (pos (t.val / 4 % 4) (gj_lt t) q) (pos (t.val % 4) (gk_lt t) r)) := by
  obtain ⟨-, -, e2, e3, -⟩ := idx_facts t
  unfold iblk
  rw [View.read_apply]
  show V m c main_v19 _ = V m c main_v19 _
  congr 1
  funext a
  apply Fin.ext
  match a with
  | ⟨0, _⟩ => show win0_1.index t (0 : Fin 2) * 1024 + 1 * q.val = 1024 * (t.val / 4 % 4) + q.val; rw [e2]; omega
  | ⟨1, _⟩ => show win0_1.index t (1 : Fin 2) * 1024 + 1 * r.val = 1024 * (t.val % 4) + r.val; rw [e3]; omega

/-- The bias window's block at point `t`, at (0, q): the bias row at (0, column q of block j). -/
theorem bias_block (c : Dev nD) (t : Fin cfg0.N) (q : Fin 1024) :
    (iblk m c 2 t : Vec F S1x1024 .f32) (ix2 (0 : Fin 1) q)
      = (V m c main_v20 : S1x4096.Idx → Elt F .f32) (ix2 (0 : Fin 1) (pos (t.val / 4 % 4) (gj_lt t) q)) := by
  obtain ⟨-, -, -, -, e4, e5, -⟩ := idx_facts t
  unfold iblk
  rw [View.read_apply]
  show V m c main_v20 _ = V m c main_v20 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = 1024 * (t.val / 4 % 4) + q.val; rw [e5]; omega

/-- Entry (p, q) of the result window's block at point `t` is entry (row p of block i, column q of block j) of
    the result. -/
theorem result_entry (t : Fin cfg0.N) (p q : Fin 1024) :
    ((cfg0.win 3).blk t).view.emb (ix2 p q)
      = (ix2 (pos (t.val / 16) (gi_lt t) p) (pos (t.val / 4 % 4) (gj_lt t) q) : S4096x4096.Idx) := by
  obtain ⟨-, -, -, -, -, -, e6, e7⟩ := idx_facts t
  funext a
  apply Fin.ext
  match a with
  | ⟨0, _⟩ => show win0_3.index t (0 : Fin 2) * 1024 + 1 * p.val = 1024 * (t.val / 16) + p.val; rw [e6]; omega
  | ⟨1, _⟩ => show win0_3.index t (1 : Fin 2) * 1024 + 1 * q.val = 1024 * (t.val / 4 % 4) + q.val; rw [e7]; omega

end Cert.KernelIdeal.Blocks

end
-- ==== Proof.Accum.lean ====
/-
  The accumulator, point by point. Write (i, j, k) = (t / 16, t / 4 mod 4, t mod 4) for point `t`'s coordinates,
  `X` and `W` for the input and the dense weight as the region finds them. After point `t` the accumulator holds, at
  (p, q), the sum of the first k + 1 contraction blocks of the entry (row p of block i, column q of block j):

      acc_t (p, q) = ∑ over the first 1024 (k + 1) positions s of X (1024 i + p, s) · W (1024 j + q, s).

  At k = 0 the body resets to zero and adds block 0; at k > 0 it adds block k to what the point before left, whose
  coordinates (i, j) are the same. The proof is an induction on the point.
-/
import proofs.«178552_j73023033966933_2_alg».proof.Proof.Gen.KernelIdeal.Frame
import proofs.«178552_j73023033966933_2_alg».proof.Proof.Spec
import proofs.«178552_j73023033966933_2_alg».proof.Proof.Payload
import proofs.«178552_j73023033966933_2_alg».proof.Proof.Pieces
import proofs.«178552_j73023033966933_2_alg».proof.Proof.Blocks

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Spec Cert.KernelIdeal.Blocks

variable (m : (ℓ : Loc nD τ sig) → Buf (Elt Ideal) ℓ)

/-- The input as the region finds it. -/
abbrev X (c : Dev nD) : Mat.Idx → EReal := V m c main_v18
/-- The dense weight as the region finds it. -/
abbrev W (c : Dev nD) : Mat.Idx → EReal := V m c main_v19

/-- The terms of the contraction that entry (p, q) of result block (a, b) sums. -/
def terms (c : Dev nD) (a b : ℕ) (ha : a < 4) (hb : b < 4) (p q : Fin 1024) : Fin 4096 → EReal :=
  term (X m c) (W m c) (pos a ha p) (pos b hb q)

/-- The block's numbers may be spelt in any equal way. -/
theorem terms_congr (c : Dev nD) {a a' b b' : ℕ} (ea : a = a') (eb : b = b') (ha : a < 4) (hb : b < 4) (ha' : a' < 4)
    (hb' : b' < 4) (p q : Fin 1024) : terms m c a b ha hb p q = terms m c a' b' ha' hb' p q := by
  subst ea; subst eb; rfl

/-- The product of the two input blocks of point `n` at (p, q) is contraction block `n mod 4` of the entry's terms. -/
theorem block_eq (c : Dev nD) (n : ℕ) (hn : n < cfg0.N) (p q : Fin 1024) :
    Body.blockProd (iblk m c 0 ⟨n, hn⟩) (iblk m c 1 ⟨n, hn⟩) p q
      = ∑ r ∈ Finset.range 1024,
          ext (terms m c (n / 16) (n / 4 % 4) (gi_lt ⟨n, hn⟩) (gj_lt ⟨n, hn⟩) p q) (1024 * (n % 4) + r) := by
  unfold Body.blockProd
  refine block_sum_pos (terms m c (n / 16) (n / 4 % 4) (gi_lt ⟨n, hn⟩) (gj_lt ⟨n, hn⟩) p q) (n % 4) (gk_lt ⟨n, hn⟩) _
    fun r => ?_
  beta_reduce
  rw [input_block m c ⟨n, hn⟩ p r, weight_block m c ⟨n, hn⟩ q r]
  rfl

/-- What the accumulator holds after a point with k = 0: one step from the reset value. -/
theorem first_step (c : Dev nD) (n : ℕ) (hn : n < cfg0.N) (h0 : n % 4 = 0) :
    (outsAt0 m c n hn).2 = k0_pay2 (k0_pay1 (F := Ideal)) (iblk m c 0 ⟨n, hn⟩) (iblk m c 1 ⟨n, hn⟩) := by
  have h1 : ¬n % 4 = 3 := by omega
  rw [outsAt0_A m c ⟨n, hn⟩ h0 h1]
  dsimp only
  exact Pieces.scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0)
    (fun h => h1 ((hcond0_1 ⟨n, hn⟩).mp h)) (iblk m c 0 ⟨n, hn⟩) (iblk m c 1 ⟨n, hn⟩) (iblk m c 2 ⟨n, hn⟩)

/-- What the accumulator holds after a point with k > 0: one step from what the point before left. -/
theorem next_step (c : Dev nD) (n : ℕ) (hn : n + 1 < cfg0.N) (h0 : ¬(n + 1) % 4 = 0) :
    (outsAt0 m c (n + 1) hn).2
      = k0_pay2 (outsAt0 m c n (Nat.lt_of_succ_lt hn)).2 (iblk m c 0 ⟨n + 1, hn⟩) (iblk m c 1 ⟨n + 1, hn⟩) := by
  by_cases h1 : (n + 1) % 4 = 3
  · rw [outsAt0_C m c ⟨n + 1, hn⟩ h0 h1]
    dsimp only
    exact Pieces.scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h))
      ((hcond0_1 ⟨n + 1, hn⟩).mpr h1) (iblk m c 0 ⟨n + 1, hn⟩) (iblk m c 1 ⟨n + 1, hn⟩) (iblk m c 2 ⟨n + 1, hn⟩)
      (outsAt0 m c n (Nat.lt_of_succ_lt hn)).2
  · rw [outsAt0_B m c ⟨n + 1, hn⟩ h0 h1]
    dsimp only
    exact Pieces.scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h))
      (fun h => h1 ((hcond0_1 ⟨n + 1, hn⟩).mp h)) (iblk m c 0 ⟨n + 1, hn⟩) (iblk m c 1 ⟨n + 1, hn⟩) (iblk m c 2 ⟨n + 1, hn⟩)
      (outsAt0 m c n (Nat.lt_of_succ_lt hn)).2

/-- At a point with k = 0 the accumulator ends holding contraction block 0 alone. -/
theorem acc_first (c : Dev nD) (n : ℕ) (hn : n < cfg0.N) (h0 : n % 4 = 0) (p q : Fin 1024) :
    (outsAt0 m c n hn).2 (ix2 p q)
      = part (terms m c (n / 16) (n / 4 % 4) (gi_lt ⟨n, hn⟩) (gj_lt ⟨n, hn⟩) p q) (n % 4 + 1) := by
  rw [first_step m c n hn h0,
    Body.step_apply (k0_pay1 (F := Ideal)) (iblk m c 0 ⟨n, hn⟩) (iblk m c 1 ⟨n, hn⟩) p q,
    Body.reset_apply (ix2 p q), block_eq m c n hn p q, part_succ, h0, part_zero]

/-- At a point with k > 0 the accumulator ends holding what the point before left plus contraction block k. -/
theorem acc_next (c : Dev nD) (n : ℕ) (hn : n + 1 < cfg0.N) (h0 : ¬(n + 1) % 4 = 0) (p q : Fin 1024)
    (ih : (outsAt0 m c n (Nat.lt_of_succ_lt hn)).2 (ix2 p q)
      = part (terms m c (n / 16) (n / 4 % 4) (gi_lt ⟨n, Nat.lt_of_succ_lt hn⟩) (gj_lt ⟨n, Nat.lt_of_succ_lt hn⟩) p q) (n % 4 + 1)) :
    (outsAt0 m c (n + 1) hn).2 (ix2 p q)
      = part (terms m c ((n + 1) / 16) ((n + 1) / 4 % 4) (gi_lt ⟨n + 1, hn⟩) (gj_lt ⟨n + 1, hn⟩) p q) ((n + 1) % 4 + 1) := by
  -- the point before has the same (i, j), and one block fewer
  have hi : n / 16 = (n + 1) / 16 := by omega
  have hj : n / 4 % 4 = (n + 1) / 4 % 4 := by omega
  have hk : n % 4 + 1 = (n + 1) % 4 := by omega
  rw [next_step m c n hn h0,
    Body.step_apply (outsAt0 m c n (Nat.lt_of_succ_lt hn)).2 (iblk m c 0 ⟨n + 1, hn⟩) (iblk m c 1 ⟨n + 1, hn⟩) p q,
    ih, terms_congr m c hi hj _ _ (gi_lt ⟨n + 1, hn⟩) (gj_lt ⟨n + 1, hn⟩) p q, hk, block_eq m c (n + 1) hn p q]
  exact (part_succ _ _).symm

/-- THE ACCUMULATOR after point `n`: the first (n mod 4) + 1 contraction blocks of the entry's terms. -/
theorem acc_eq (c : Dev nD) : ∀ (n : ℕ) (hn : n < cfg0.N) (p q : Fin 1024),
    (outsAt0 m c n hn).2 (ix2 p q)
      = part (terms m c (n / 16) (n / 4 % 4) (gi_lt ⟨n, hn⟩) (gj_lt ⟨n, hn⟩) p q) (n % 4 + 1)
  | 0, hn, p, q => acc_first m c 0 hn rfl p q
  | n + 1, hn, p, q => by
    by_cases h0 : (n + 1) % 4 = 0
    · exact acc_first m c (n + 1) hn h0 p q
    · exact acc_next m c n hn h0 p q (acc_eq c n (Nat.lt_of_succ_lt hn) p q)

/-- At a point with k = 3 the result block is the accumulator after the point plus the bias block's row. -/
theorem out_last (c : Dev nD) (t : Fin cfg0.N) (h3 : t.val % 4 = 3) :
    (outsAt0 m c t.val t.isLt).1 = k0_pay3 (outsAt0 m c t.val t.isLt).2 (iblk m c 2 t) := by
  have h0 : ¬t.val % 4 = 0 := by omega
  rw [outsAt0_C m c t h0 h3]
  dsimp only
  rw [Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2,
    Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2]

end Cert.KernelIdeal.Accum

end
-- ==== Proof.Inputs.lean ====
/-
  What the idealized kernel's region finds in the three arrays it reads, as functions of @main's arguments on the
  extended reals: the input itself (its change of float format is the identity), the dense weight built from the
  condensed weight and the index mask by a scatter-add into zeros (its change of format the identity too), and the
  bias laid out as a [1, 4096] row.
-/
import proofs.«178552_j73023033966933_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

/-- The dense [4096, 4096] weight, one row per output feature: entry `k` of condensed row `o` is added into
    column `mask (o, k)` of row `o` of a zero array (a negative index counted from the end), as @main's scatter
    spells it. Both programs spell the same scatter; no proof here opens it. -/
def dense {F : FTy → Type} [FloatOps F] (x1 : (⟨S4096x512, .f32⟩ : BufTy).Contents (Elt F))
    (x2 : (⟨S4096x512, .i32⟩ : BufTy).Contents (Elt F)) : (⟨S4096x4096, .f32⟩ : BufTy).Contents (Elt F) :=
  Host.scatterAdd scatter_S4096x4096_S4096x512x2_S4096x512_n_01_01_2 (broadcastInDim S4096x4096 ![] bcast_S_S4096x4096 (constant S_ .f32 0x00000000#32)) (concatenate S4096x512x2 2 [⟨S4096x512x1, (broadcastInDim S4096x512x1 ![0, 1] bcast_S4096x512_S4096x512x1_0_1 (broadcastInDim S4096x512 ![0, 1] bcast_S4096x1_S4096x512_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x512x1, (broadcastInDim S4096x512x1 ![0, 1] bcast_S4096x512_S4096x512x1_0_1 (select (cmpi .slt (x2) (broadcastInDim S4096x512 ![] bcast_S_S4096x512 (constantI S_ 32 0#32))) (addi (x2) (broadcastInDim S4096x512 ![] bcast_S_S4096x512 (constantI S_ 32 4096#32))) (x2)))⟩] concatenates_S4096x512x1_S4096x512x1_S4096x512x2_d2) (x1)

variable (m : (ℓ : Loc nD τ sig) → Buf (Elt Ideal) ℓ)

/-- The first operand of the region is the input. -/
theorem V_input (c : Dev nD) :
    (V m c main_v18 : S4096x4096.Idx → EReal) = m ((c : Thread nD τ).loc main_arg0) := by
  dsimp only [Gen.V, Gen.hostOps0]
  after_results
  rfl

set_option maxHeartbeats 2000000 in
/-- The second operand is the dense weight of the condensed weight and the mask. -/
theorem V_weight (c : Dev nD) :
    (V m c main_v19 : S4096x4096.Idx → EReal)
      = dense (F := Ideal) (m ((c : Thread nD τ).loc main_arg1)) (m ((c : Thread nD τ).loc main_arg2)) := by
  dsimp only [Gen.V, Gen.hostOps0]
  after_results
  rfl

/-- The third operand is the bias as a [1, 4096] row: entry (0, q) is bias `q`. -/
theorem V_bias (c : Dev nD) (u : Fin 1) (q : Fin 4096) :
    (V m c main_v20 : S1x4096.Idx → EReal) (ix2 u q) = m ((c : Thread nD τ).loc main_arg3) (ix1 q) := by
  have e : (V m c main_v20 : S1x4096.Idx → EReal)
      = shapeCast S1x4096 (m ((c : Thread nD τ).loc main_arg3)) shapeCasts_S4096_S1x4096 := by
    dsimp only [Gen.V, Gen.hostOps0]
    after_results
    rfl
  rw [e]
  exact shapeCast_a_1a_apply _ shapeCasts_S4096_S1x4096 u q

end Cert.KernelIdeal.Inputs

end
-- ==== Proof.Final.lean ====
/-
  The idealized kernel's result array. The result window is written back only at the points with k = 3, one per
  block (i, j) of the result; what is written there is the accumulator after all four contraction blocks plus the
  bias, that is block (i, j) of the dense layer `Spec.G` of the input, the dense weight and the bias. The sixteen
  blocks tile the result (entry (r, s) lies in block (r / 1024, s / 1024)), so the result array ends holding the
  dense layer whole.
-/
import proofs.«178552_j73023033966933_2_alg».proof.Proof.Gen.KernelIdeal.Value
import proofs.«178552_j73023033966933_2_alg».proof.Proof.Accum
import proofs.«178552_j73023033966933_2_alg».proof.Proof.Inputs

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Cert.Spec Cert.KernelIdeal.Blocks Cert.KernelIdeal.Accum
open Idealize.ShloMosaic.Pipeline (Dat)

variable (m : (ℓ : Loc nD τ sig) → Buf (Elt Ideal) ℓ) (ρ : Dev nD → PrngReg)

/-- The bias as the region finds it (a [1, 4096] row), as a vector of length 4096. -/
def biasRow (c : Dev nD) : Row.Idx → EReal := fun i => (V m c main_v20 : S1x4096.Idx → EReal) (ix2 (0 : Fin 1) (i 0))

/-- The dense layer of what the region finds. -/
abbrev result (c : Dev nD) : Buf (Elt Ideal) ((c : Thread nD τ).loc main_v21) := G (X m c) (W m c) (biasRow m c)

/-- WHAT A FLUSHING POINT WRITES BACK is its block of the dense layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h4 : t.val % 4 + 1 = 4 := by omega
  rw [Value.flushed3 m c t, out_last m c t h3]
  refine funext fun (y : S1024x1024.Idx) => ?_
  obtain ⟨p, q, rfl⟩ : ∃ (p q : Fin 1024), y = ix2 p q := ⟨y 0, y 1, eq_ix2 y⟩
  show k0_pay3 (F := Ideal) (outsAt0 m c t.val t.isLt).2 (iblk m c 2 t) (ix2 p q)
    = result m c (((cfg0.win 3).blk t).view.emb (ix2 p q))
  rw [Body.bias_apply (outsAt0 m c t.val t.isLt).2 (iblk m c 2 t) p q, acc_eq m c t.val t.isLt p q, bias_block m c t q,
    result_entry t p q, h4, part_four]
  refine Eq.trans ?_ (G_apply (X m c) (W m c) (biasRow m c) _ _).symm
  unfold terms biasRow
  rfl

/-- An entry of the result is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v21).slice (win0_3.rect t)).set ↔ _
  rw [View.set_slice_whole, Rect.mem_set_unit]
  exact Iff.rfl

/-- Every entry (r, s) of the result is in the block of the flushing point (r / 1024, s / 1024, 3). -/
theorem cover (i : S4096x4096.Idx) :
    ∃ t : Fin cfg0.N, (cfg0.win 3).flush t = true ∧ i ∈ ((cfg0.win 3).blk t).view.set := by
  have hr : (i 0).val < 4096 := (i 0).isLt
  have hs : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3,
      lt_of_lt_of_eq (by omega : 16 * ((i 0).val / 1024) + 4 * ((i 1).val / 1024) + 3 < 64) (show (64 : ℕ) = cfg0.N from N_0.symm)⟩, rfl⟩
  refine ⟨t, (flush0_3 t).mpr (by omega), ?_⟩
  rw [mem_blk]
  obtain ⟨-, -, -, -, -, -, e6, e7⟩ := idx_facts t
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 1024 ≤ (i 1).val ∧ (i 1).val < win0_3.index t (1 : Fin 2) * 1024 + 1024
    rw [e7]; omega

/-- THE RESULT ARRAY after the run is the dense layer of what the region finds. -/
theorem final (c : Dev nD) : (dats m 0 c).arrAt 3 cfg0.N = result m c :=
  (dats m 0 c).arrAt_eq_of_cover 3 (result m c) (flushed_eq m c) cover

/-- What the region finds are the arguments: the input, the dense weight of the condensed weight and the mask,
    the bias. -/
theorem result_eq (c : Dev nD) :
    result m c = G (m ((c : Thread nD τ).loc main_arg0))
      (Inputs.dense (F := Ideal) (m ((c : Thread nD τ).loc main_arg1)) (m ((c : Thread nD τ).loc main_arg2)))
      (m ((c : Thread nD τ).loc main_arg3)) := by
  have eb : biasRow m c = m ((c : Thread nD τ).loc main_arg3) := by
    funext i
    obtain ⟨q, rfl⟩ : ∃ q : Fin 4096, i = ix1 q := ⟨i 0, eq_ix1 i⟩
    exact Inputs.V_bias m c 0 q
  show G (V m c main_v18) (V m c main_v19) (biasRow m c) = _
  rw [eb, Inputs.V_input m c, Inputs.V_weight m c]

/-- THE RUN, READ: every weakly fair execution of the idealized kernel ends with the result array at the dense
    layer of the arguments, the arguments unchanged. -/
theorem run : θ_run defs (onTc (τ := τ) (main (F := Ideal))) ⟨m, fun _ => 0, ρ⟩ fun r => ∀ c : Dev nD,
      r.2.mem ((c : Thread nD τ).loc main_v21) = G (m ((c : Thread nD τ).loc main_arg0))
          (Inputs.dense (F := Ideal) (m ((c : Thread nD τ).loc main_arg1)) (m ((c : Thread nD τ).loc main_arg2)))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (Value.run_blocks m ρ)

end Cert.KernelIdeal.Dense

end
-- ==== Proof.RefDense.lean ====
/-
  The reference's result, read entry by entry on the extended reals, is the dense layer `Spec.G` of its input, of
  the dense weight its scatter builds (left unopened: both programs build it by the same scatter of the same
  operands) and of its bias. The reference contracts the input with the TRANSPOSED weight over the transposed
  weight's rows, that is over the weight's columns; and it copies the bias into a [1, 4096] row and that row down
  every row of the result.
-/
import proofs.«178552_j73023033966933_2_alg».proof.Proof.Gen.ReferenceIdeal.Read
import proofs.«178552_j73023033966933_2_alg».proof.Proof.Spec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- Entry (i, j) of the reference's result: `∑ k, x (i, k) · W (j, k) + bias j`. -/
theorem result_eq (x0 : (⟨S4096x4096, .f32⟩ : BufTy).Contents (Elt Ideal)) (x1 : (⟨S4096x512, .f32⟩ : BufTy).Contents (Elt Ideal))
    (x2 : (⟨S4096x512, .i32⟩ : BufTy).Contents (Elt Ideal)) (x3 : (⟨S4096, .f32⟩ : BufTy).Contents (Elt Ideal)) :
    val_main_v22 (F := Ideal) x0 x1 x2 x3 = Cert.Spec.G x0 (val_main_v17 (F := Ideal) x1 x2) x3 := by
  funext y
  obtain ⟨i, j, rfl⟩ : ∃ (i j : Fin 4096), y = ix2 i j := ⟨y 0, y 1, eq_ix2 y⟩
  rw [val_main_v22_apply, val_main_v19_apply, val_main_v21_apply, val_main_v20_apply, Cert.Spec.G_apply]
  have e3 : idx_main_v20 (idx_main_v21 (ix2 i j)) = ix1 j :=
    funext fun a => Fin.ext (by match a with | ⟨0, _⟩ => rfl)
  rw [e3]
  refine congrArg (· + x3 (ix1 j)) (Finset.sum_congr rfl fun k _ => ?_)
  rw [val_main_v18_apply]
  have el : lidx_main_v19 (ix2 i j) k = ix2 i k :=
    funext fun a => Fin.ext (by match a with | ⟨0, _⟩ => rfl | ⟨1, _⟩ => rfl)
  have er : idx_main_v18 (ridx_main_v19 (ix2 i j) k) = ix2 j k :=
    funext fun a => Fin.ext (by match a with | ⟨0, _⟩ => rfl | ⟨1, _⟩ => rfl)
  rw [el, er]
  rfl

end Cert.ReferenceIdeal.RefValue

end
-- ==== Proof.lean ====
/-
  A linear layer with a condensed weight: y[t, o] = ∑ₖ input[t, mask[o, k]] · weight[o, k] + bias[o], over
  input f32[4096, 4096], condensed weight f32[4096, 512], index mask i32[4096, 512] and bias f32[4096].

  Both programs first expand the condensed weight into a dense W f32[4096, 4096] by the same scatter-add of the same
  operands into zeros, and then compute the dense layer  G (i, j) = ∑ₛ input (i, s) · W (j, s) + bias j  (Proof/Spec.lean):

    the reference  as one contraction of the input with the transposed W over all 4096 positions, plus the bias
                   copied down every row (Proof/RefDense.lean, over the generated reading of its operations);
    the kernel     on a 4 × 4 × 4 grid of [1024, 1024] blocks: for each result block (i, j), an accumulator is reset at
                   k = 0, receives the product of input block (i, k) with weight block (j, k) at each k, and at k = 3
                   the accumulator plus the bias block is stored as the result block (Proof/Pieces.lean, Payload.lean,
                   Blocks.lean, Accum.lean, Final.lean). On the extended reals the operands' change of float format is
                   the identity.

  The two agree because a sum of 4096 terms is the sum of its four consecutive blocks of 1024 terms taken in order
  from zero: associativity of addition and 0 + a = a, which hold for all extended reals. The precondition (finite
  inputs) is therefore never opened. The ideal pass rewrote nothing in the kernel, so the idealization conjunct is
  `True`; the three frames are the generated ones (the reference's is its generated run with the result dropped).
-/
import proofs.«178552_j73023033966933_2_alg».proof.Defs
import proofs.«178552_j73023033966933_2_alg».proof.Proof.Gen.Kernel
import proofs.«178552_j73023033966933_2_alg».proof.Proof.Gen.Kernel.Skeleton
import proofs.«178552_j73023033966933_2_alg».proof.Proof.Gen.Kernel.Launch
import proofs.«178552_j73023033966933_2_alg».proof.Proof.Gen.Kernel.Points
import proofs.«178552_j73023033966933_2_alg».proof.Proof.Gen.Kernel.Frame
import proofs.«178552_j73023033966933_2_alg».proof.Proof.Gen.KernelIdeal
import proofs.«178552_j73023033966933_2_alg».proof.Proof.Gen.KernelIdeal.Skeleton
import proofs.«178552_j73023033966933_2_alg».proof.Proof.Gen.KernelIdeal.Launch
import proofs.«178552_j73023033966933_2_alg».proof.Proof.Gen.KernelIdeal.Points
import proofs.«178552_j73023033966933_2_alg».proof.Proof.Gen.KernelIdeal.Frame
import proofs.«178552_j73023033966933_2_alg».proof.Proof.Gen.KernelIdeal.Value
import proofs.«178552_j73023033966933_2_alg».proof.Proof.Gen.ReferenceIdeal
import proofs.«178552_j73023033966933_2_alg».proof.Proof.Gen.ReferenceIdeal.Run
import proofs.«178552_j73023033966933_2_alg».proof.Proof.Gen.ReferenceIdeal.Read
import proofs.«178552_j73023033966933_2_alg».proof.Proof.Gen.Pre_finite_inputs
import proofs.«178552_j73023033966933_2_alg».proof.Proof.Final
import proofs.«178552_j73023033966933_2_alg».proof.Proof.RefDense
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The two programs build ONE dense weight: the same scatter-add of the same operands into zeros. -/
theorem dense_eq (x1 : (⟨Cert.ReferenceIdeal.S4096x512, .f32⟩ : BufTy).Contents (Elt Ideal))
    (x2 : (⟨Cert.ReferenceIdeal.S4096x512, .i32⟩ : BufTy).Contents (Elt Ideal)) :
    Cert.ReferenceIdeal.Read.val_main_v17 (F := Ideal) x1 x2 = Cert.KernelIdeal.Inputs.dense (F := Ideal) x1 x2 := rfl

/-- At the ideal instance the kernel's result array ends at the dense layer of the arguments (the accumulated
    blocks), and the reference's at the dense layer of arguments that agree (one whole contraction): one function. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, dense_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
